-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128 : Shape := ⟨1, ![128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg5 : FVec F S128 .f32) (main_arg12 : FVec F S256x2 .f32) (main_arg13 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x2 .f32 := Host.absf main_arg12
  let main_cst_20 : FVec F S_ .f32 := constant S_ .f32 0x7F800000#32
  let main_v55 : FVec F S256x2 .f32 := broadcastInDim S256x2 ![] bcast_S_S256x2 main_cst_20
  let main_v56 : IVec S256x2 1 := cmpf .olt main_v54 main_v55
  let main_c_21 : IVec S_ 1 := constantI S_ 1 1#1
  let main_v57 : IVec S_ 1 := (fun x v => Host.reduce IntOp.andi x v reducesTo_S256x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_cst_24 : FVec F S_ .f32 := constant S_ .f32 0x00000000#32
  let main_v64 : FVec F S128 .f32 := broadcastInDim S128 ![] bcast_S_S128 main_cst_24
  let main_v65 : IVec S128 1 := cmpf .oge main_arg5 main_v64
  let main_c_25 : IVec S_ 1 := constantI S_ 1 1#1
  let main_v66 : IVec S_ 1 := (fun x v => Host.reduce IntOp.andi x v reducesTo_S128_S_d0 h_S_) main_v65 main_c_25
  let main_v67 : IVec S_ 1 := andi main_v63 main_v66
  main_v67

def fn_part2 {F : FTy → Type} [FloatOps F] (main_arg5 : FVec F S128 .f32) (main_arg8 : FVec F S256 .f32) (main_arg9 : FVec F S256 .f32) (main_arg10 : FVec F S256 .f32) (main_arg11 : FVec F S256 .f32) (main_arg12 : FVec F S256x2 .f32) (main_arg13 : FVec F S2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg5 main_arg12 main_arg13 main_v48 main_v49 main_v50

def fn_part1 {F : FTy → Type} [FloatOps F] (main_arg5 : FVec F S128 .f32) (main_arg6 : FVec F S128x256 .f32) (main_arg7 : FVec F S256 .f32) (main_arg8 : FVec F S256 .f32) (main_arg9 : FVec F S256 .f32) (main_arg10 : FVec F S256 .f32) (main_arg11 : FVec F S256 .f32) (main_arg12 : FVec F S256x2 .f32) (main_arg13 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg5 main_arg8 main_arg9 main_arg10 main_arg11 main_arg12 main_arg13 main_v33

def fn {F : FTy → Type} [FloatOps F] (main_arg0 : FVec F S50000x128 .f32) (main_arg1 : IVec S2x640000 32) (main_arg2 : FVec F S128 .f32) (main_arg3 : FVec F S128 .f32) (main_arg4 : FVec F S128 .f32) (main_arg5 : FVec F S128 .f32) (main_arg6 : FVec F S128x256 .f32) (main_arg7 : FVec F S256 .f32) (main_arg8 : FVec F S256 .f32) (main_arg9 : FVec F S256 .f32) (main_arg10 : FVec F S256 .f32) (main_arg11 : FVec F S256 .f32) (main_arg12 : FVec F S256x2 .f32) (main_arg13 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x640000 : Shape := ⟨2, ![2, 640000]⟩
abbrev S128 : Shape := ⟨1, ![128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x2 : Shape := ⟨2, ![50000, 2]⟩
abbrev S2000x128 : Shape := ⟨2, ![2000, 128]⟩
abbrev S2000x1 : Shape := ⟨2, ![2000, 1]⟩
abbrev S2000x2 : Shape := ⟨2, ![2000, 2]⟩
abbrev S1x128 : Shape := ⟨2, ![1, 128]⟩
abbrev S2000x256 : Shape := ⟨2, ![2000, 256]⟩
abbrev S1x256 : Shape := ⟨2, ![1, 256]⟩
abbrev S1x2 : Shape := ⟨2, ![1, 2]⟩

abbrev nBuf : Space → Nat
  | .hbm => 46
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x2, .f32⟩
  | .hbm, ⟨13, _⟩ => ⟨S2, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S50000x128, .f32⟩
  | .hbm, ⟨29, _⟩ => ⟨S640000x1, .i32⟩
  | .hbm, ⟨30, _⟩ => ⟨S50000x128, .f32⟩
  | .hbm, ⟨31, _⟩ => ⟨S_, .f32⟩
  | .hbm, ⟨32, _⟩ => ⟨S640000, .f32⟩
  | .hbm, ⟨33, _⟩ => ⟨S_, .f32⟩
  | .hbm, ⟨34, _⟩ => ⟨S50000, .f32⟩
  | .hbm, ⟨35, _⟩ => ⟨S640000x1, .i32⟩
  | .hbm, ⟨36, _⟩ => ⟨S50000, .f32⟩
  | .hbm, ⟨37, _⟩ => ⟨S50000x1, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128, .f32⟩
  | .local _ .vmem, ⟨7, _⟩ => ⟨S128, .f32⟩
  | .local _ .vmem, ⟨8, _⟩ => ⟨S128x256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256x2, .f32⟩
  | .local _ .vmem, ⟨15, _⟩ => ⟨S2, .f32⟩
  | .local _ .vmem, ⟨16, _⟩ => ⟨S2000x2, .f32⟩
  | .local _ .vmem, ⟨17, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  bcast_S_S128 : S_.BroadcastsInDim S128 (![] : Fin 0 → Fin S128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x2_S256x2_0_0 : ∀ a, (![0, 0] : Fin 2 → Nat) a + S256x2.size a ≤ S256x2.size a
  h_S256x2 : 0 < S256x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S2000x128_S128x256_S2000x256_1_0_0_1_n_n_wf : DotDims.WF S2000x128 S128x256 S2000x256 [1] [0] [0] [1] [] []
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x2.size a ≤ S256x2.size a
  hwx0_11 : ∀ i : grid0.Coords, EltTy.bits .f32 = 32 ∨ (Rect.block (s := S256x2) S256x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2.size a ≤ S2.size a
  hwx0_12 : ∀ i : grid0.Coords, EltTy.bits .f32 = 32 ∨ (Rect.block (s := S2) S2.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x2.size a ≤ S50000x2.size a
  hwx0_13 : ∀ i : grid0.Coords, EltTy.bits .f32 = 32 ∨ (Rect.block (s := S50000x2) S2000x2.size (cc0_transform_13 i) (hinb0_13 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S256x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S2000x2.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128 : Shape := ⟨1, ![128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S1x128 : Shape := ⟨2, ![1, 128]⟩
abbrev S_ : Shape := ⟨0, ![]⟩
abbrev S1x640000 : Shape := ⟨2, ![1, 640000]⟩
abbrev S640000 : Shape := ⟨1, ![640000]⟩
abbrev S640000x1 : Shape := ⟨2, ![640000, 1]⟩
abbrev S640000x128 : Shape := ⟨2, ![640000, 128]⟩
abbrev S50000x256 : Shape := ⟨2, ![50000, 256]⟩
abbrev S1x256 : Shape := ⟨2, ![1, 256]⟩
abbrev S50000x2 : Shape := ⟨2, ![50000, 2]⟩
abbrev S1x2 : Shape := ⟨2, ![1, 2]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x2, .f32⟩
  | .hbm, ⟨13, _⟩ => ⟨S2, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S50000x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S1x640000, .i32⟩
  | .hbm, ⟨29, _⟩ => ⟨S640000, .i32⟩
  | .hbm, ⟨30, _⟩ => ⟨S1x640000, .i32⟩
  | .hbm, ⟨31, _⟩ => ⟨S640000, .i32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S_, .f32⟩
  | .hbm, ⟨42, _⟩ => ⟨S50000x128, .f32⟩
  | .hbm, ⟨43, _⟩ => ⟨S640000x1, .i32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S50000x2, .f32⟩
  | .hbm, ⟨71, _⟩ => ⟨S1x2, .f32⟩
  | .hbm, ⟨72, _⟩ => ⟨S50000x2, .f32⟩
  | .hbm, ⟨73, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call0_cst : Ref sig .tc := ⟨.hbm, 53, rfl⟩
abbrev main_call0_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S256 : S_.BroadcastsInDim S256 (![] : Fin 0 → Fin S256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x256_S50000x256_1_0_0_1_n_n_wf : DotDims.WF S50000x128 S128x256 S50000x256 [1] [0] [0] [1] [] []
  dot_S50000x256_S256x2_S50000x2_1_0_0_1_n_n_wf : DotDims.WF S50000x256 S256x2 S50000x2 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.GinSpec.lean ====
/-
  The layer both programs compute, row by row, and the law that joins their two arrangements of its first stage.

  A node's combined features are its own normalised features plus the sum of its in-neighbours' normalised features,
  where normalising a feature x is the affine map (x - mean) * s + beta with s = gamma * rsqrt(var + eps). One program
  normalises every node first and then sums over the edges; the other sums the raw features over the edges, counts the
  edges, and applies the affine map once:  s * (x_n + sum_e x_(src e)) + (1 + deg n) * (beta - s * mean).  Over the real
  numbers these agree by distributing the sums. From the combined row both programs compute the same head: a dense
  layer, a rectifier, a second normalisation and a second dense layer.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx
open scoped BigOperators

/-- A matrix of extended reals. -/
abbrev Mat (M N : ℕ) := (⟨2, ![M, N]⟩ : Shape).Idx → EReal
/-- A vector of extended reals. -/
abbrev Vct (N : ℕ) := (⟨1, ![N]⟩ : Shape).Idx → EReal

/-- The float one. -/
abbrev one : EReal := Ideal.ofBits .f32 0x3F800000#32
/-- The float zero. -/
abbrev zero : EReal := Ideal.ofBits .f32 0x00000000#32
/-- The variance offset of both normalisations. -/
abbrev eps : EReal := Ideal.ofBits .f32 0x3727C5AC#32

theorem one_eq : one = 1 := by
  simp [one, Ideal.ofBits, Ideal.ieee]
  exact_mod_cast (by norm_num : (8388608 : ℝ) * ((2 : ℝ) ^ 23)⁻¹ = 1)

theorem zero_eq : zero = 0 := Ideal.ofBits_zero_f32

/-- The scale of a normalisation: gamma * rsqrt(var + eps). -/
def scale (gamma var : EReal) : EReal := gamma * Ideal.rsqrt (var + eps)

/-- One normalised value: (v - mean) * scale + beta. -/
def norm (v mean gamma var beta : EReal) : EReal := (v - mean) * scale gamma var + beta

/-- Row p of the combined features as the kernel arranges them, from the raw features x, the edge sums aggx of raw
    features, the in-degree column deg, and the folded coefficients s and t. -/
def combined {M : ℕ} (x aggx : Mat M 128) (deg : Mat M 1) (s t : Vct 128) (p : Fin M) (k : Fin 128) : EReal :=
  s (ix1 k) * (one * x (ix2 p k) + aggx (ix2 p k)) + (one + deg (ix2 p (0 : Fin 1))) * t (ix1 k)

/-- The head applied to one row h of combined features, read at class c. -/
def head (h : Fin 128 → EReal) (W1 : Mat 128 256) (b1 g1 be1 rm1 rv1 : Vct 256) (W2 : Mat 256 2) (b2 : Vct 2)
    (c : Fin 2) : EReal :=
  (∑ j : Fin 256, norm (max ((∑ k : Fin 128, h k * W1 (ix2 k j)) + b1 (ix1 j)) zero)
      (rm1 (ix1 j)) (g1 (ix1 j)) (rv1 (ix1 j)) (be1 (ix1 j)) * W2 (ix2 j c)) + b2 (ix1 c)

/-- The kernel's whole result: at (n, c), the head of row n of the combined features. -/
def kernelOut (x aggx : Mat 50000 128) (deg : Mat 50000 1) (s t : Vct 128) (W1 : Mat 128 256) (b1 g1 be1 rm1 rv1 : Vct 256)
    (W2 : Mat 256 2) (b2 : Vct 2) : Mat 50000 2 :=
  fun i => head (fun k => combined x aggx deg s t (i 0) k) W1 b1 g1 be1 rm1 rv1 W2 b2 (i 1)

/-- A finite sum of reals, read as an extended real, is the sum of the terms read so. -/
theorem coe_sum {ι : Type*} (S : Finset ι) (f : ι → ℝ) : ((∑ e ∈ S, f e : ℝ) : EReal) = ∑ e ∈ S, (f e : EReal) := by
  classical
  induction S using Finset.induction_on with
  | empty => simp
  | insert a S ha ih => rw [Finset.sum_insert ha, Finset.sum_insert ha, EReal.coe_add, ih]

/-- The law over the reals: normalise then sum over a set of edges = sum, count, then one affine map. -/
theorem combine_real {ι : Type*} (S : Finset ι) (P : ι → Prop) [DecidablePred P] (xn r s b : ℝ) (y : ι → ℝ) :
    1 * ((xn - r) * s + b) + (0 + ∑ e ∈ S, if P e then (y e - r) * s + b else 0)
      = s * (1 * xn + (0 + ∑ e ∈ S, if P e then y e else 0))
        + (1 + (0 + ∑ e ∈ S, if P e then (1 : ℝ) else 0)) * (b - s * r) := by
  have h : ∀ e, (if P e then (y e - r) * s + b else 0)
      = s * (if P e then y e else 0) + (if P e then (1 : ℝ) else 0) * (b - s * r) := by
    intro e; split_ifs <;> ring
  simp only [h, Finset.sum_add_distrib, ← Finset.mul_sum, ← Finset.sum_mul]
  ring

/-- The same law on the extended reals, for real data. -/
theorem combine_ereal {E : ℕ} (P : Fin E → Prop) [DecidablePred P] (xn r s b : ℝ) (y : Fin E → ℝ) :
    (1 : EReal) * (((xn : EReal) - r) * s + b) + (0 + ∑ e : Fin E, if P e then (((y e : ℝ) : EReal) - r) * s + b else 0)
      = (s : EReal) * (1 * xn + (0 + ∑ e : Fin E, if P e then ((y e : ℝ) : EReal) else 0))
        + (1 + (0 + ∑ e : Fin E, if P e then (1 : EReal) else 0)) * ((b : EReal) - s * r) := by
  have h := congrArg (fun t : ℝ => (t : EReal)) (combine_real (Finset.univ : Finset (Fin E)) P xn r s b y)
  simp only [EReal.coe_add, EReal.coe_mul, EReal.coe_sub, coe_sum, apply_ite (fun t : ℝ => (t : EReal)),
    EReal.coe_zero, EReal.coe_one] at h
  exact h

/-- The variance offset is a positive real. -/
theorem eps_pos : ∃ ε : ℝ, 0 < ε ∧ eps = (ε : EReal) := by
  refine ⟨(10995116 : ℝ) * (2 : ℝ) ^ (-40 : ℤ), by positivity, ?_⟩
  simp [eps, Ideal.ofBits, Ideal.ieee]

/-- The scale of a real gamma and a nonnegative real variance is real. -/
theorem scale_real (g v : ℝ) (hv : 0 ≤ v) : ∃ s : ℝ, scale (g : EReal) (v : EReal) = (s : EReal) := by
  obtain ⟨ε, hε, he⟩ := eps_pos
  refine ⟨g * (Real.sqrt (v + ε))⁻¹, ?_⟩
  unfold scale
  rw [he, ← EReal.coe_add, Ideal.rsqrt_coe, if_neg (by linarith), if_neg (by linarith), ← EReal.coe_mul]

end Cert.Gin

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.GinTile.lean ====
/-
  One tile of the kernel, read at an entry.
-/
import proofs.«152993_j74431783240459_2_alg».proof.Proof.Gen.KernelIdeal.Skeleton
import proofs.«152993_j74431783240459_2_alg».proof.Proof.GinSpec
import proofs.«152993_j74431783240459_2_alg».proof.Proof.LibMatmul
import Idealize.ShloMosaic.Lib.ValueLayout
import Idealize.ShloMosaic.Lib.Pipeline.Value

noncomputable section

namespace Cert.Gin.Tile

open Cert.KernelIdeal Cert.KernelIdeal.Gen Idealize.ShloMosaic Idealize.ShloMosaic.ValueIdx
open scoped BigOperators

/-- A vector viewed as a 1 x N row and repeated down M rows reads, at (p, q), the vector's entry q. -/
theorem row_apply {M N : ℕ} (b : (⟨1, ![N]⟩ : Shape).Idx → EReal) (hc : (⟨1, ![N]⟩ : Shape).ShapeCasts ⟨2, ![1, N]⟩)
    (hb : (⟨2, ![1, N]⟩ : Shape).Broadcasts ⟨2, ![M, N]⟩) (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc 0 q)

/-- An M x 1 column repeated across N columns reads, at (p, q), the column's entry p. -/
theorem col_apply {M N : ℕ} (v : (⟨2, ![M, 1]⟩ : Shape).Idx → EReal) (hb : (⟨2, ![M, 1]⟩ : Shape).Broadcasts ⟨2, ![M, N]⟩)
    (p : Fin M) (q : Fin N) : broadcastTo ⟨2, ![M, N]⟩ v hb (ix2 p q) = v (ix2 p (0 : Fin 1)) := by
  refine broadcastTo_apply v hb (ix2 p q) (ix2 p (0 : Fin 1)) fun ax => ?_
  match ax with
  | ⟨0, _⟩ =>
    show p.val = if M = 1 then 0 else p.val
    split
    · have := p.isLt; omega
    · rfl
  | ⟨1, _⟩ => rfl

/-- A product into a zero accumulator plus a bias row, at (p, q). -/
theorem dense_apply {M K N : ℕ} {φ₁ φ₂ : FTy}
    (wf : DotDims.WF ⟨2, ![M, K]⟩ ⟨2, ![K, N]⟩ ⟨2, ![M, N]⟩ [1] [0] [0] [1] [] [])
    (lhs : FVec Ideal ⟨2, ![M, K]⟩ φ₁) (rhs : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul (Cert.MatmulAt.plainDims wf) none lhs rhs (constant (F := Ideal) ⟨2, ![M, N]⟩ .f32 0x00000000#32))
        (broadcastTo ⟨2, ![M, N]⟩ (shapeCast ⟨2, ![1, N]⟩ b hc) hb) (ix2 p q)
      = (∑ k : Fin K, lhs (ix2 p k) * rhs (ix2 k q)) + b (ix1 q) := by
  show matmul _ _ _ _ _ (ix2 p q) + broadcastTo _ _ _ (ix2 p q) = _
  rw [Cert.MatmulAt.matmul_zero_plain_apply wf none _ _ p q, row_apply]

/-- The rectified first dense layer of a tile at (p, j). -/
theorem hidden_apply (x0 x1 : Vec Ideal S2000x128 .f32) (x2 : Vec Ideal S2000x1 .f32) (x3 x4 : Vec Ideal S128 .f32)
    (x5 : Vec Ideal S128x256 .f32) (x6 : Vec Ideal S256 .f32) (p : Fin 2000) (j : Fin 256) :
    k0_pay2 (F := Ideal) x0 x1 x2 x3 x4 x5 x6 (ix2 p j)
      = max ((∑ k : Fin 128, combined x0 x1 x2 x3 x4 p k * x5 (ix2 k j)) + x6 (ix1 j)) zero := by
  unfold k0_pay2
  refine congrArg (fun z => max z zero) ((dense_apply _ _ _ x6 _ _ p j).trans ?_)
  congr 1
  refine Finset.sum_congr rfl fun k _ => ?_
  refine congrArg (fun z => z * x5 (ix2 k j)) ?_
  show broadcastTo S2000x128 (shapeCast S1x128 (shapeCast S128 x3 _) _) _ (ix2 p k)
        * (one * x0 (ix2 p k) + shapeCast S2000x128 x1 _ (ix2 p k))
      + broadcastTo S2000x128 (addf (F := Ideal) (φ := .f32) (broadcast S2000x1 _) (shapeCast S2000x1 x2 _)) _ (ix2 p k)
        * broadcastTo S2000x128 (shapeCast S1x128 (shapeCast S128 x4 _) _) _ (ix2 p k) = _
  rw [row_apply, row_apply, col_apply, shapeCast_self, shapeCast_self, shapeCast_self, shapeCast_self]
  rfl

/-- The second normalisation and the second dense layer of a tile at (p, c), over any rectified first layer. -/
theorem out_apply (v31 : FVec Ideal S2000x256 .f32) (x7 x8 x9 x10 : Vec Ideal S256 .f32) (x11 : Vec Ideal S256x2 .f32)
    (x12 : Vec Ideal S2 .f32) (p : Fin 2000) (c : Fin 2) :
    k0_pay1 (F := Ideal) v31 (k0_pay3 x7 x10) (k0_pay4 x9) x8 x11 x12 (ix2 p c)
      = (∑ j : Fin 256, norm (v31 (ix2 p j)) (x9 (ix1 j)) (x7 (ix1 j)) (x10 (ix1 j)) (x8 (ix1 j)) * x11 (ix2 j c))
        + x12 (ix1 c) := by
  unfold k0_pay1 k0_pay3 k0_pay4
  refine (dense_apply _ _ _ x12 _ _ p c).trans ?_
  congr 1
  refine Finset.sum_congr rfl fun j _ => ?_
  refine congrArg (fun z => z * x11 (ix2 j c)) ?_
  show (v31 (ix2 p j) - broadcastTo S2000x256 (shapeCast S1x256 x9 _) _ (ix2 p j))
        * broadcastTo S2000x256 (shapeCast S1x256 (mulf x7 (rsqrt (addf x10 (broadcast S256 _)))) _) _ (ix2 p j)
      + broadcastTo S2000x256 (shapeCast S1x256 x8 _) _ (ix2 p j) = _
  rw [row_apply, row_apply, row_apply]
  rfl

/-- A tile's result at (p, c) is the head of the tile's combined row p. -/
theorem tile_apply (x0 x1 : Vec Ideal S2000x128 .f32) (x2 : Vec Ideal S2000x1 .f32) (x3 x4 : Vec Ideal S128 .f32)
    (x5 : Vec Ideal S128x256 .f32) (x6 x7 x8 x9 x10 : Vec Ideal S256 .f32) (x11 : Vec Ideal S256x2 .f32)
    (x12 : Vec Ideal S2 .f32) (p : Fin 2000) (c : Fin 2) :
    k0_pay1 (F := Ideal) (k0_pay2 x0 x1 x2 x3 x4 x5 x6) (k0_pay3 x7 x10) (k0_pay4 x9) x8 x11 x12 (ix2 p c)
      = head (fun k => combined x0 x1 x2 x3 x4 p k) x5 x6 x7 x8 x9 x10 x11 x12 c := by
  rw [out_apply]
  unfold head
  congr 1
  refine Finset.sum_congr rfl fun j _ => ?_
  rw [hidden_apply]

/-- A tile's result at an entry y is the whole result at the entry i of the array that the tile's entry y is, when the
    tile's three row-tiled inputs are the rows of the whole arrays X, AG, DG starting at row r0. -/
theorem tile_eq_out (x0 x1 : Vec Ideal S2000x128 .f32) (x2 : Vec Ideal S2000x1 .f32) (x3 x4 : Vec Ideal S128 .f32)
    (x5 : Vec Ideal S128x256 .f32) (x6 x7 x8 x9 x10 : Vec Ideal S256 .f32) (x11 : Vec Ideal S256x2 .f32)
    (x12 : Vec Ideal S2 .f32) (X AG : Mat 50000 128) (DG : Mat 50000 1) (r0 : ℕ) (y : S2000x2.Idx) (i : S50000x2.Idx)
    (hi0 : (i 0).val = r0 + (y 0).val) (hi1 : (i 1).val = (y 1).val)
    (h0 : ∀ (p : Fin 2000) (n : Fin 50000) (k : Fin 128), n.val = r0 + p.val → x0 (ix2 p k) = X (ix2 n k))
    (h1 : ∀ (p : Fin 2000) (n : Fin 50000) (k : Fin 128), n.val = r0 + p.val → x1 (ix2 p k) = AG (ix2 n k))
    (h2 : ∀ (p : Fin 2000) (n : Fin 50000), n.val = r0 + p.val → x2 (ix2 p (0 : Fin 1)) = DG (ix2 n (0 : Fin 1))) :
    k0_pay1 (F := Ideal) (k0_pay2 x0 x1 x2 x3 x4 x5 x6) (k0_pay3 x7 x10) (k0_pay4 x9) x8 x11 x12 y
      = kernelOut X AG DG x3 x4 x5 x6 x7 x8 x9 x10 x11 x12 i := by
  obtain ⟨p, c, rfl⟩ : ∃ (p : Fin 2000) (c : Fin 2), y = ix2 p c := ⟨y 0, y 1, eq_ix2 y⟩
  rw [tile_apply]
  unfold kernelOut
  have hc : i 1 = c := Fin.ext hi1
  rw [hc]
  refine congrArg (fun h => head h x5 x6 x7 x8 x9 x10 x11 x12 c) (funext fun k => ?_)
  unfold combined
  rw [h0 p (i 0) k hi0, h1 p (i 0) k hi0, h2 p (i 0) hi0]

/-- The same with the tile's ten untiled inputs given as the whole arrays they are. -/
theorem tile_eq_whole (x0 x1 : Vec Ideal S2000x128 .f32) (x2 : Vec Ideal S2000x1 .f32) (x3 x4 : Vec Ideal S128 .f32)
    (x5 : Vec Ideal S128x256 .f32) (x6 x7 x8 x9 x10 : Vec Ideal S256 .f32) (x11 : Vec Ideal S256x2 .f32)
    (x12 : Vec Ideal S2 .f32) (X AG : Mat 50000 128) (DG : Mat 50000 1) (S3 S4 : Vct 128) (S5 : Mat 128 256)
    (S6 S7 S8 S9 S10 : Vct 256) (S11 : Mat 256 2) (S12 : Vct 2) (r0 : ℕ) (y : S2000x2.Idx) (i : S50000x2.Idx)
    (hi0 : (i 0).val = r0 + (y 0).val) (hi1 : (i 1).val = (y 1).val)
    (h0 : ∀ (p : Fin 2000) (n : Fin 50000) (k : Fin 128), n.val = r0 + p.val → x0 (ix2 p k) = X (ix2 n k))
    (h1 : ∀ (p : Fin 2000) (n : Fin 50000) (k : Fin 128), n.val = r0 + p.val → x1 (ix2 p k) = AG (ix2 n k))
    (h2 : ∀ (p : Fin 2000) (n : Fin 50000), n.val = r0 + p.val → x2 (ix2 p (0 : Fin 1)) = DG (ix2 n (0 : Fin 1)))
    (e3 : x3 = S3) (e4 : x4 = S4) (e5 : x5 = S5) (e6 : x6 = S6) (e7 : x7 = S7) (e8 : x8 = S8) (e9 : x9 = S9)
    (e10 : x10 = S10) (e11 : x11 = S11) (e12 : x12 = S12) :
    k0_pay1 (F := Ideal) (k0_pay2 x0 x1 x2 x3 x4 x5 x6) (k0_pay3 x7 x10) (k0_pay4 x9) x8 x11 x12 y
      = kernelOut X AG DG S3 S4 S5 S6 S7 S8 S9 S10 S11 S12 i := by
  subst e3 e4 e5 e6 e7 e8 e9 e10 e11 e12
  exact tile_eq_out x0 x1 x2 x3 x4 x5 x6 x7 x8 x9 x10 x11 x12 X AG DG r0 y i hi0 hi1 h0 h1 h2

end Cert.Gin.Tile

end
-- ==== Proof.GinKernelValue.lean ====
/-
  From the tiles to the whole array: tile t writes rows 2000 t … 2000 t + 1999 of the result, the 25 tiles cover all 50000
  rows, so after the run the result array is the whole-array function of the arrays the region finds.
-/
import proofs.«152993_j74431783240459_2_alg».proof.Proof.Gen.KernelIdeal.Value
import proofs.«152993_j74431783240459_2_alg».proof.Proof.GinTile

noncomputable section

namespace Cert.Gin.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The whole result as a function of the arrays the region finds. -/
def result (c : Dev nD) : S50000x2.Idx → EReal :=
  kernelOut (V m c main_arg0 : S50000x128.Idx → EReal) (V m c main_v13 : S50000x128.Idx → EReal)
    (V m c main_v18 : S50000x1.Idx → EReal) (V m c main_v22 : S128.Idx → EReal) (V m c main_v24 : S128.Idx → EReal)
    (V m c main_arg6 : S128x256.Idx → EReal) (V m c main_arg7 : S256.Idx → EReal) (V m c main_arg8 : S256.Idx → EReal)
    (V m c main_arg9 : S256.Idx → EReal) (V m c main_arg10 : S256.Idx → EReal) (V m c main_arg11 : S256.Idx → EReal)
    (V m c main_arg12 : S256x2.Idx → EReal) (V m c main_arg13 : S2.Idx → EReal)

/-- The printed index maps over the grid: the three row-tiled inputs move with the output's row block, every other
    input stays at its one block, and the output's column block is the only one. -/
theorem idx_facts : ∀ t : Fin cfg0.N,
    win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_2.index t (0 : Fin 2) = win0_13.index t (0 : Fin 2) ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0
    ∧ win0_9.index t (0 : Fin 1) = 0 ∧ win0_10.index t (0 : Fin 1) = 0
    ∧ win0_11.index t (0 : Fin 2) = 0 ∧ win0_11.index t (1 : Fin 2) = 0
    ∧ win0_12.index t (0 : Fin 1) = 0
    ∧ win0_13.index t (1 : Fin 2) = 0 ∧ win0_13.index t (0 : Fin 2) ≤ 24 :=
  (by decide +kernel : ∀ t : Fin grid0.N, _)

/-- Every row block of the result is some tile's. -/
theorem idx_onto : ∀ q : Fin 25, ∃ t : Fin cfg0.N, win0_13.index t = ![q.val, 0] :=
  (by decide +kernel : ∀ q : Fin 25, ∃ t : Fin grid0.N, win0_13.index t = ![q.val, 0])

/-- Window 3 is its whole array at every tile. -/
theorem read_whole3 (t : Fin cfg0.N) (A : S128.Idx → EReal) : ((cfg0.win 3).blk t).view.read (Elt Ideal) A = A := by
  obtain ⟨f00, f01, f10, f11, f20, f21, f3, f4, f50, f51, f6, f7, f8, f9, f10', f110, f111, f12, f131, f130⟩ := idx_facts t
  funext j
  show A (((cfg0.win 3).blk t).view.emb j) = A j
  refine congrArg A (funext fun a => Fin.ext ?_)
  match a with
  | ⟨0, _⟩ => show win0_3.index t (0 : Fin 1) * 128 + 1 * (j 0).val = (j 0).val; omega

/-- Window 4 is its whole array at every tile. -/
theorem read_whole4 (t : Fin cfg0.N) (A : S128.Idx → EReal) : ((cfg0.win 4).blk t).view.read (Elt Ideal) A = A := by
  obtain ⟨f00, f01, f10, f11, f20, f21, f3, f4, f50, f51, f6, f7, f8, f9, f10', f110, f111, f12, f131, f130⟩ := idx_facts t
  funext j
  show A (((cfg0.win 4).blk t).view.emb j) = A j
  refine congrArg A (funext fun a => Fin.ext ?_)
  match a with
  | ⟨0, _⟩ => show win0_4.index t (0 : Fin 1) * 128 + 1 * (j 0).val = (j 0).val; omega

/-- Window 5 is its whole array at every tile. -/
theorem read_whole5 (t : Fin cfg0.N) (A : S128x256.Idx → EReal) : ((cfg0.win 5).blk t).view.read (Elt Ideal) A = A := by
  obtain ⟨f00, f01, f10, f11, f20, f21, f3, f4, f50, f51, f6, f7, f8, f9, f10', f110, f111, f12, f131, f130⟩ := idx_facts t
  funext j
  show A (((cfg0.win 5).blk t).view.emb j) = A j
  refine congrArg A (funext fun a => Fin.ext ?_)
  match a with
  | ⟨0, _⟩ => show win0_5.index t (0 : Fin 2) * 128 + 1 * (j 0).val = (j 0).val; omega
  | ⟨1, _⟩ => show win0_5.index t (1 : Fin 2) * 256 + 1 * (j 1).val = (j 1).val; omega

/-- Window 6 is its whole array at every tile. -/
theorem read_whole6 (t : Fin cfg0.N) (A : S256.Idx → EReal) : ((cfg0.win 6).blk t).view.read (Elt Ideal) A = A := by
  obtain ⟨f00, f01, f10, f11, f20, f21, f3, f4, f50, f51, f6, f7, f8, f9, f10', f110, f111, f12, f131, f130⟩ := idx_facts t
  funext j
  show A (((cfg0.win 6).blk t).view.emb j) = A j
  refine congrArg A (funext fun a => Fin.ext ?_)
  match a with
  | ⟨0, _⟩ => show win0_6.index t (0 : Fin 1) * 256 + 1 * (j 0).val = (j 0).val; omega

/-- Window 7 is its whole array at every tile. -/
theorem read_whole7 (t : Fin cfg0.N) (A : S256.Idx → EReal) : ((cfg0.win 7).blk t).view.read (Elt Ideal) A = A := by
  obtain ⟨f00, f01, f10, f11, f20, f21, f3, f4, f50, f51, f6, f7, f8, f9, f10', f110, f111, f12, f131, f130⟩ := idx_facts t
  funext j
  show A (((cfg0.win 7).blk t).view.emb j) = A j
  refine congrArg A (funext fun a => Fin.ext ?_)
  match a with
  | ⟨0, _⟩ => show win0_7.index t (0 : Fin 1) * 256 + 1 * (j 0).val = (j 0).val; omega

/-- Window 8 is its whole array at every tile. -/
theorem read_whole8 (t : Fin cfg0.N) (A : S256.Idx → EReal) : ((cfg0.win 8).blk t).view.read (Elt Ideal) A = A := by
  obtain ⟨f00, f01, f10, f11, f20, f21, f3, f4, f50, f51, f6, f7, f8, f9, f10', f110, f111, f12, f131, f130⟩ := idx_facts t
  funext j
  show A (((cfg0.win 8).blk t).view.emb j) = A j
  refine congrArg A (funext fun a => Fin.ext ?_)
  match a with
  | ⟨0, _⟩ => show win0_8.index t (0 : Fin 1) * 256 + 1 * (j 0).val = (j 0).val; omega

/-- Window 9 is its whole array at every tile. -/
theorem read_whole9 (t : Fin cfg0.N) (A : S256.Idx → EReal) : ((cfg0.win 9).blk t).view.read (Elt Ideal) A = A := by
  obtain ⟨f00, f01, f10, f11, f20, f21, f3, f4, f50, f51, f6, f7, f8, f9, f10', f110, f111, f12, f131, f130⟩ := idx_facts t
  funext j
  show A (((cfg0.win 9).blk t).view.emb j) = A j
  refine congrArg A (funext fun a => Fin.ext ?_)
  match a with
  | ⟨0, _⟩ => show win0_9.index t (0 : Fin 1) * 256 + 1 * (j 0).val = (j 0).val; omega

/-- Window 10 is its whole array at every tile. -/
theorem read_whole10 (t : Fin cfg0.N) (A : S256.Idx → EReal) : ((cfg0.win 10).blk t).view.read (Elt Ideal) A = A := by
  obtain ⟨f00, f01, f10, f11, f20, f21, f3, f4, f50, f51, f6, f7, f8, f9, f10', f110, f111, f12, f131, f130⟩ := idx_facts t
  funext j
  show A (((cfg0.win 10).blk t).view.emb j) = A j
  refine congrArg A (funext fun a => Fin.ext ?_)
  match a with
  | ⟨0, _⟩ => show win0_10.index t (0 : Fin 1) * 256 + 1 * (j 0).val = (j 0).val; omega

/-- Window 11 is its whole array at every tile. -/
theorem read_whole11 (t : Fin cfg0.N) (A : S256x2.Idx → EReal) : ((cfg0.win 11).blk t).view.read (Elt Ideal) A = A := by
  obtain ⟨f00, f01, f10, f11, f20, f21, f3, f4, f50, f51, f6, f7, f8, f9, f10', f110, f111, f12, f131, f130⟩ := idx_facts t
  funext j
  show A (((cfg0.win 11).blk t).view.emb j) = A j
  refine congrArg A (funext fun a => Fin.ext ?_)
  match a with
  | ⟨0, _⟩ => show win0_11.index t (0 : Fin 2) * 256 + 1 * (j 0).val = (j 0).val; omega
  | ⟨1, _⟩ => show win0_11.index t (1 : Fin 2) * 2 + 1 * (j 1).val = (j 1).val; omega

/-- Window 12 is its whole array at every tile. -/
theorem read_whole12 (t : Fin cfg0.N) (A : S2.Idx → EReal) : ((cfg0.win 12).blk t).view.read (Elt Ideal) A = A := by
  obtain ⟨f00, f01, f10, f11, f20, f21, f3, f4, f50, f51, f6, f7, f8, f9, f10', f110, f111, f12, f131, f130⟩ := idx_facts t
  funext j
  show A (((cfg0.win 12).blk t).view.emb j) = A j
  refine congrArg A (funext fun a => Fin.ext ?_)
  match a with
  | ⟨0, _⟩ => show win0_12.index t (0 : Fin 1) * 2 + 1 * (j 0).val = (j 0).val; omega

/-- Window 0's block at tile t holds the rows of its array that start at the tile's first row. -/
theorem read_rows0 (t : Fin cfg0.N) (A : S50000x128.Idx → EReal) (p : Fin 2000) (n : Fin 50000) (k : Fin 128)
    (hn : n.val = win0_13.index t (0 : Fin 2) * 2000 + p.val) :
    ((cfg0.win 0).blk t).view.read (Elt Ideal) A (ix2 p k) = A (ix2 n k) := by
  obtain ⟨f00, f01, f10, f11, f20, f21, f3, f4, f50, f51, f6, f7, f8, f9, f10', f110, f111, f12, f131, f130⟩ := idx_facts t
  show A (((cfg0.win 0).blk t).view.emb (ix2 p k)) = A (ix2 n k)
  refine congrArg A (funext fun a => Fin.ext ?_)
  match a with
  | ⟨0, _⟩ => show win0_0.index t (0 : Fin 2) * 2000 + 1 * p.val = n.val; omega
  | ⟨1, _⟩ => show win0_0.index t (1 : Fin 2) * 128 + 1 * k.val = k.val; omega

/-- Window 1's block at tile t holds the rows of its array that start at the tile's first row. -/
theorem read_rows1 (t : Fin cfg0.N) (A : S50000x128.Idx → EReal) (p : Fin 2000) (n : Fin 50000) (k : Fin 128)
    (hn : n.val = win0_13.index t (0 : Fin 2) * 2000 + p.val) :
    ((cfg0.win 1).blk t).view.read (Elt Ideal) A (ix2 p k) = A (ix2 n k) := by
  obtain ⟨f00, f01, f10, f11, f20, f21, f3, f4, f50, f51, f6, f7, f8, f9, f10', f110, f111, f12, f131, f130⟩ := idx_facts t
  show A (((cfg0.win 1).blk t).view.emb (ix2 p k)) = A (ix2 n k)
  refine congrArg A (funext fun a => Fin.ext ?_)
  match a with
  | ⟨0, _⟩ => show win0_1.index t (0 : Fin 2) * 2000 + 1 * p.val = n.val; omega
  | ⟨1, _⟩ => show win0_1.index t (1 : Fin 2) * 128 + 1 * k.val = k.val; omega

/-- Window 2's block at tile t holds the rows of its array that start at the tile's first row. -/
theorem read_rows2 (t : Fin cfg0.N) (A : S50000x1.Idx → EReal) (p : Fin 2000) (n : Fin 50000) (k : Fin 1)
    (hn : n.val = win0_13.index t (0 : Fin 2) * 2000 + p.val) :
    ((cfg0.win 2).blk t).view.read (Elt Ideal) A (ix2 p k) = A (ix2 n k) := by
  obtain ⟨f00, f01, f10, f11, f20, f21, f3, f4, f50, f51, f6, f7, f8, f9, f10', f110, f111, f12, f131, f130⟩ := idx_facts t
  show A (((cfg0.win 2).blk t).view.emb (ix2 p k)) = A (ix2 n k)
  refine congrArg A (funext fun a => Fin.ext ?_)
  match a with
  | ⟨0, _⟩ => show win0_2.index t (0 : Fin 2) * 2000 + 1 * p.val = n.val; omega
  | ⟨1, _⟩ => show win0_2.index t (1 : Fin 2) * 1 + 1 * k.val = k.val; omega

/-- Entry y of tile t's block of the result is row (tile's first row + y's row), column y's column. -/
theorem emb_row (t : Fin cfg0.N) (y : S2000x2.Idx) :
    ((((cfg0.win 13).blk t).view.emb y) 0).val = win0_13.index t (0 : Fin 2) * 2000 + (y 0).val := by
  show win0_13.index t (0 : Fin 2) * 2000 + 1 * (y 0).val = _
  omega

theorem emb_col (t : Fin cfg0.N) (y : S2000x2.Idx) : ((((cfg0.win 13).blk t).view.emb y) 1).val = (y 1).val := by
  obtain ⟨f00, f01, f10, f11, f20, f21, f3, f4, f50, f51, f6, f7, f8, f9, f10', f110, f111, f12, f131, f130⟩ := idx_facts t
  show win0_13.index t (1 : Fin 2) * 2 + 1 * (y 1).val = _
  omega

set_option maxHeartbeats 1000000 in
/-- What tile t writes back is block t of the whole result. -/
theorem flushed_eq (c : Dev nD) (t : Fin cfg0.N) :
    (dats m 0 c).flushed 13 t = ((cfg0.win 13).blk t).view.read (Elt Ideal) (result m c) := by
  rw [Cert.KernelIdeal.Value.flushed13]
  unfold out0_13
  rw [View.canon_unit_zero hz2]
  simp only [View.ld_unit_zero (S := S2000x128) hz2, View.ld_unit_zero (S := S2000x1) hz2,
    View.ld_unit_zero (S := S128) hz1, View.ld_unit_zero (S := S128x256) hz2, View.ld_unit_zero (S := S256) hz1,
    View.ld_unit_zero (S := S256x2) hz2, View.ld_unit_zero (S := S2) hz1]
  funext y
  exact Cert.Gin.Tile.tile_eq_whole (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (iblk m c 12 t) (V m c main_arg0) (V m c main_v13) (V m c main_v18) (V m c main_v22) (V m c main_v24)
    (V m c main_arg6) (V m c main_arg7) (V m c main_arg8) (V m c main_arg9) (V m c main_arg10) (V m c main_arg11)
    (V m c main_arg12) (V m c main_arg13) (win0_13.index t (0 : Fin 2) * 2000) y (((cfg0.win 13).blk t).view.emb y)
    (emb_row t y) (emb_col t y)
    (fun p n k hn => read_rows0 t (V m c main_arg0) p n k hn)
    (fun p n k hn => read_rows1 t (V m c main_v13) p n k hn)
    (fun p n hn => read_rows2 t (V m c main_v18) p n (0 : Fin 1) hn)
    (read_whole3 t (V m c main_v22)) (read_whole4 t (V m c main_v24)) (read_whole5 t (V m c main_arg6))
    (read_whole6 t (V m c main_arg7)) (read_whole7 t (V m c main_arg8)) (read_whole8 t (V m c main_arg9))
    (read_whole9 t (V m c main_arg10)) (read_whole10 t (V m c main_arg11)) (read_whole11 t (V m c main_arg12))
    (read_whole12 t (V m c main_arg13))

/-- An index of the result array is in tile t's block iff each coordinate is in the block's range. -/
theorem mem_blk (t : Fin cfg0.N) (i : S50000x2.Idx) :
    i ∈ ((cfg0.win 13).blk t).view.set ↔ ∀ a : Fin 2, win0_13.index t a * S2000x2.size a ≤ (i a).val
      ∧ (i a).val < win0_13.index t a * S2000x2.size a + S2000x2.size a := by
  show i ∈ ((View.whole main_v25).slice (win0_13.rect t)).set ↔ _
  rw [View.set_slice_whole, Rect.mem_set_unit]
  exact Iff.rfl

/-- Every entry of the result lies in the block of the tile that holds its row. -/
theorem cover (i : S50000x2.Idx) : ∃ t : Fin cfg0.N, (cfg0.win 13).flush t = true ∧ i ∈ ((cfg0.win 13).blk t).view.set := by
  have hi0 : (i 0).val < 50000 := (i 0).isLt
  have hi1 : (i 1).val < 2 := (i 1).isLt
  obtain ⟨t, ht⟩ := idx_onto ⟨(i 0).val / 2000, by omega⟩
  have q0 : win0_13.index t (0 : Fin 2) = (i 0).val / 2000 := congrFun ht 0
  have q1 : win0_13.index t (1 : Fin 2) = 0 := congrFun ht 1
  refine ⟨t, flush0_13 t, ?_⟩
  rw [mem_blk]
  intro a
  match a with
  | ⟨0, _⟩ =>
    show win0_13.index t (0 : Fin 2) * 2000 ≤ (i 0).val ∧ (i 0).val < win0_13.index t (0 : Fin 2) * 2000 + 2000
    omega
  | ⟨1, _⟩ =>
    show win0_13.index t (1 : Fin 2) * 2 ≤ (i 1).val ∧ (i 1).val < win0_13.index t (1 : Fin 2) * 2 + 2
    omega

/-- After the run the result array is the whole result. -/
theorem final (c : Dev nD) : (dats m 0 c).arrAt 13 cfg0.N = result m c :=
  (dats m 0 c).arrAt_eq_of_cover 13 (result m c) (fun t _ => flushed_eq m c t) cover

/-- The kernel's run: it ends with the result array at the whole result and the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩)
    (Cert.KernelIdeal.Value.run_blocks m ρ)

end Cert.Gin.KValue

end
-- ==== Proof.GinLayout.lean ====
/-
  Host layout steps read at an entry: a vector repeated down the rows in two steps, a constant spread over a shape, and
  a vector viewed as a one-column matrix.
-/
import Idealize.ShloMosaic.PureOps.Ideal
import Idealize.ShloMosaic.Lib.ValueIdx
import Idealize.ShloMosaic.Lib.ValueLayout
import Idealize.ShloMosaic.Lib.Pipeline.Value

noncomputable section

namespace Cert.Gin

open Idealize.ShloMosaic Idealize.ShloMosaic.ValueIdx

/-- A vector made a 1 x n row and then repeated down M rows, by two host broadcasts, reads at (p, q) its entry q. -/
theorem hostRow_apply {α : Type} {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply _ h₂ _ (ix2 p q) (ix2 (0 : Fin 1) q) fun a => ?_).trans
    (broadcastInDim_apply _ h₁ b _ (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A float constant spread over any shape reads everywhere the value of its word. -/
theorem hostScalar_apply {s : Shape} (h : (⟨0, ![]⟩ : Shape).BroadcastsInDim s (![] : Fin 0 → Fin s.rank)) (w : BitVec 32)
    (i : s.Idx) : broadcastInDim s ![] h (constant (F := Ideal) ⟨0, ![]⟩ .f32 w) i = Ideal.ofBits .f32 w :=
  broadcastInDim_apply _ h _ i ix0 (fun a => a.elim0)

/-- A length-a vector viewed as an a x 1 column reads, at (p, 0), the vector's entry p. -/
theorem column_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Gin

end
-- ==== Proof.LibGatherRows.lean ====
/-
  A gather of whole rows of a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a gather of whole rows: operand `[N, C]`, start indices `[E, 1]` (one row number per
    result row), result `[E, C]`; the row axis collapsed, the column axis the one offset axis. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of whole rows read at `(e, c)` is the table at column `c` of the row whose number is the start index
    of result row `e`, read signed and clamped into `[0, N − 1]`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGather N C E wf) x idx (ix2 e c)
      = x (ix2 (⟨min (idx (ix2 e (0 : Fin 1))).toInt.toNat (N - 1), by omega⟩ : Fin N) c) := by
  have h0 : (rowsGather N C E wf).start (ix2 e c) idx 0 + (rowsGather N C E wf).batchCoord (ix2 e c) 0
      + (rowsGather N C E wf).offCoord (ix2 e c) 0 = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl)]
    have hsi : (rowsGather N C E wf).siIdx (ix2 e c) ⟨List.idxOf (0 : Fin 2) (rowsGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsGather N C E wf).start (ix2 e c) idx 1 + (rowsGather N C E wf).batchCoord (ix2 e c) 1
      + (rowsGather N C E wf).offCoord (ix2 e c) 1 = c.val := by
    rw [GatherDims.batchCoord_eq_zero _ _ _ List.not_mem_nil]
    have hs : (rowsGather N C E wf).start (ix2 e c) idx 1 = 0 := by
      unfold GatherDims.start
      rw [dif_neg (show ¬ ((1 : Fin 2) ∈ ([0] : List (Fin 2))) from by decide)]
    rw [hs, Nat.add_zero, Nat.zero_add]
    rfl
  unfold Host.gather
  congr 1
  funext a
  refine Fin.ext ?_
  match a with
  | ⟨0, _⟩ => exact h0
  | ⟨1, _⟩ => exact h1

end Cert.LibRows

end
-- ==== Proof.LibScatterRows.lean ====
/-
  A float scatter-add of whole rows into a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a scatter of whole rows: operand `[N, C]`, scatter indices `[E, 1]` (one row number per
    update row), updates `[E, C]`; the row axis inserted, the column axis the one window axis. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coordinates
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the row number of update row `e`, read signed. -/
theorem rowsScatter_start_row :
    (rowsScatter N C E wf).start (ix2 e c') idx 0 = (idx (ix2 e (0 : Fin 1))).toInt := by
  unfold ScatterDims.start
  rw [dif_pos (show (0 : Fin 2) ∈ (rowsScatter N C E wf).scatterDimsToOperandDims from List.mem_singleton.mpr rfl)]
  have hsi : (rowsScatter N C E wf).siIdx (ix2 e c') ⟨List.idxOf (0 : Fin 2) (rowsScatter N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
theorem rowsScatter_start_col : (rowsScatter N C E wf).start (ix2 e c') idx 1 = 0 := by
  unfold ScatterDims.start
  rw [dif_neg (show ¬ ((1 : Fin 2) ∈ ([0] : List (Fin 2))) from by decide)]

/-- On the row axis the window coordinate is `0`. -/
theorem rowsScatter_window_row : (rowsScatter N C E wf).window (ix2 e c') 0 = 0 := by
  unfold ScatterDims.window
  rw [dif_neg (show ¬ ((0 : Fin 2) ∈ (rowsScatter N C E wf).sKept) from
    (show ¬ ((0 : Fin 2) ∈ (List.finRange 2).filter (fun a => a ∉ ([0] : List (Fin 2)))) from by decide))]

/-- On the column axis the window coordinate is the update entry's column. -/
theorem rowsScatter_window_col : (rowsScatter N C E wf).window (ix2 e c') 1 = c'.val := by
  unfold ScatterDims.window
  rw [dif_pos (show (1 : Fin 2) ∈ (rowsScatter N C E wf).sKept from
    (show (1 : Fin 2) ∈ (List.finRange 2).filter (fun a => a ∉ ([0] : List (Fin 2))) from by decide))]
  rfl

end Coordinates

/-- Update entry `(e, c')` lands at operand entry `(n, c)` exactly when the row number of update row `e`, read signed
    and not clamped, is `n` and the columns agree. -/
theorem rowsScatter_resultIdx_eq_some_iff {N C E w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowsScatter N C E wf).resultIdx? (ix2 e c') idx = some (ix2 n c) ↔ (idx (ix2 e (0 : Fin 1))).toInt = (n.val : Int) ∧ c' = c := by
  have hs0 := rowsScatter_start_row wf idx e c'
  have hs1 := rowsScatter_start_col wf idx e c'
  have hw0 := rowsScatter_window_row wf e c'
  have hw1 := rowsScatter_window_col wf e c'
  have hn := n.isLt
  have hc := c.isLt
  have hc' := c'.isLt
  unfold ScatterDims.resultIdx?
  constructor
  · intro h
    split at h
    · rename_i hin
      have h' := Option.some.inj h
      have e0 : ((rowsScatter N C E wf).start (ix2 e c') idx 0 + ((rowsScatter N C E wf).window (ix2 e c') 0 : Nat)).toNat = n.val :=
        congrArg (fun f => (f 0).val) h'
      have e1 : ((rowsScatter N C E wf).start (ix2 e c') idx 1 + ((rowsScatter N C E wf).window (ix2 e c') 1 : Nat)).toNat = c.val :=
        congrArg (fun f => (f 1).val) h'
      have p0 := (hin 0).1
      rw [hs0, hw0] at e0 p0
      rw [hs1, hw1] at e1
      refine ⟨by omega, Fin.ext (by omega)⟩
    · exact absurd h (by simp)
  · rintro ⟨h1, rfl⟩
    have hin : ∀ a, 0 ≤ (rowsScatter N C E wf).start (ix2 e c') idx a + ((rowsScatter N C E wf).window (ix2 e c') a : Nat)
        ∧ (rowsScatter N C E wf).start (ix2 e c') idx a + ((rowsScatter N C E wf).window (ix2 e c') a : Nat)
          < ((⟨2, ![N, C]⟩ : Shape).size a : Nat) := by
      intro a
      match a with
      | ⟨0, _⟩ =>
        show 0 ≤ (rowsScatter N C E wf).start (ix2 e c') idx 0 + ((rowsScatter N C E wf).window (ix2 e c') 0 : Nat)
          ∧ (rowsScatter N C E wf).start (ix2 e c') idx 0 + ((rowsScatter N C E wf).window (ix2 e c') 0 : Nat) < (N : Int)
        rw [hs0, hw0, h1]; omega
      | ⟨1, _⟩ =>
        show 0 ≤ (rowsScatter N C E wf).start (ix2 e c') idx 1 + ((rowsScatter N C E wf).window (ix2 e c') 1 : Nat)
          ∧ (rowsScatter N C E wf).start (ix2 e c') idx 1 + ((rowsScatter N C E wf).window (ix2 e c') 1 : Nat) < (C : Int)
        rw [hs1, hw1]; omega
    rw [dif_pos hin]
    congr 1
    funext a
    refine Fin.ext ?_
    match a with
    | ⟨0, _⟩ =>
      show ((rowsScatter N C E wf).start (ix2 e c') idx 0 + ((rowsScatter N C E wf).window (ix2 e c') 0 : Nat)).toNat = n.val
      rw [hs0, hw0, h1]; omega
    | ⟨1, _⟩ =>
      show ((rowsScatter N C E wf).start (ix2 e c') idx 1 + ((rowsScatter N C E wf).window (ix2 e c') 1 : Nat)).toNat = c'.val
      rw [hs1, hw1]; omega

/-- At the ideal instance the scatter-add of whole rows read at `(n, c)` is the operand's entry plus the sum, over the
    update rows whose row number (read signed, not clamped) is `n`, of the update's entry in column `c`; an update
    row whose number is outside `[0, N)` lands nowhere. -/
theorem scatterAdd_rows_apply {N C E w : Nat} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowsScatter N C E wf) x idx upd (ix2 n c)
      = x (ix2 n c) + ∑ e : Fin E, if (idx (ix2 e (0 : Fin 1))).toInt = (n.val : Int) then upd (ix2 e c) else 0 := by
  change x (ix2 n c) + _ = _
  congr 1
  rw [Finset.sum_filter, sum_idx2]
  refine Finset.sum_congr rfl fun e _ => ?_
  simp only [rowsScatter_resultIdx_eq_some_iff]
  by_cases h : (idx (ix2 e (0 : Fin 1))).toInt = (n.val : Int)
  · simp only [h, true_and, if_true]
    rw [Finset.sum_ite_eq' Finset.univ c (fun c' => upd (ix2 e c'))]
    simp
  · simp only [h, false_and, if_false]
    exact Finset.sum_const_zero

end Cert.LibRows

end
-- ==== Proof.LibScatterVec.lean ====
/-
  A float scatter-add of single entries into a vector at a column of positions, read at an entry.
-/
import Idealize.ShloMosaic.PureOps.Ideal
import Idealize.ShloMosaic.Lib.ValueIdx

noncomputable section

open Idealize.ShloMosaic Idealize.ShloMosaic.ValueIdx
open scoped BigOperators

namespace Cert.LibVec

/-- A vector's index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries into a vector: operand `[N]`, scatter indices `[E, 1]` (one
    position per update entry), updates `[E]`; the operand's one axis inserted, so the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update entry `e` starts at the position of update entry `e`, read signed. -/
theorem vecScatter_start :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate on it is `0`. -/
theorem vecScatter_window : (vecScatter N E wf).window (ix1 e) 0 = 0 := by
  unfold ScatterDims.window
  rw [dif_neg (show ¬ ((0 : Fin 1) ∈ (vecScatter N E wf).sKept) from
    (show ¬ ((0 : Fin 1) ∈ (List.finRange 1).filter (fun a => a ∉ ([0] : List (Fin 1)))) from by decide))]

end Coordinates

/-- Update entry `e` lands at operand entry `n` exactly when the position of update entry `e`, read signed and not
    clamped, is `n`. -/
theorem vecScatter_resultIdx_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  have hs := vecScatter_start wf idx e
  have hw := vecScatter_window wf e
  have hn := n.isLt
  unfold ScatterDims.resultIdx?
  constructor
  · intro h
    split at h
    · rename_i hin
      have h' := Option.some.inj h
      have e0 : ((vecScatter N E wf).start (ix1 e) idx 0 + ((vecScatter N E wf).window (ix1 e) 0 : Nat)).toNat = n.val :=
        congrArg (fun f => (f 0).val) h'
      have p0 := (hin 0).1
      rw [hs, hw] at e0 p0
      omega
    · exact absurd h (by simp)
  · intro h1
    have hin : ∀ a, 0 ≤ (vecScatter N E wf).start (ix1 e) idx a + ((vecScatter N E wf).window (ix1 e) a : Nat)
        ∧ (vecScatter N E wf).start (ix1 e) idx a + ((vecScatter N E wf).window (ix1 e) a : Nat)
          < ((⟨1, ![N]⟩ : Shape).size a : Nat) := by
      intro a
      obtain rfl : a = 0 := Subsingleton.elim _ _
      show 0 ≤ (vecScatter N E wf).start (ix1 e) idx 0 + ((vecScatter N E wf).window (ix1 e) 0 : Nat)
        ∧ (vecScatter N E wf).start (ix1 e) idx 0 + ((vecScatter N E wf).window (ix1 e) 0 : Nat) < (N : Int)
      rw [hs, hw, h1]; omega
    rw [dif_pos hin]
    congr 1
    funext a
    obtain rfl : a = 0 := Subsingleton.elim _ _
    refine Fin.ext ?_
    show ((vecScatter N E wf).start (ix1 e) idx 0 + ((vecScatter N E wf).window (ix1 e) 0 : Nat)).toNat = n.val
    rw [hs, hw, h1]; omega

/-- At the ideal instance the scatter-add of single entries read at `n` is the operand's entry plus the sum, over the
    update entries whose position (read signed, not clamped) is `n`, of the update's entry; an update entry whose
    position is outside `[0, N)` lands nowhere. -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  change x (ix1 n) + _ = _
  congr 1
  rw [Finset.sum_filter, sum_idx1]
  refine Finset.sum_congr rfl fun e _ => ?_
  simp only [vecScatter_resultIdx_eq_some_iff]

end Cert.LibVec

end
-- ==== Proof.GinKernelHost.lean ====
/-
  What the kernel's host operations leave in the arrays its region reads: the edge sums of raw features, the in-degree
  column, and the two folded coefficient vectors, each as a function of the arguments and each read at an entry.
-/
import proofs.«152993_j74431783240459_2_alg».proof.Proof.Gen.KernelIdeal.Frame
import proofs.«152993_j74431783240459_2_alg».proof.Proof.GinSpec
import proofs.«152993_j74431783240459_2_alg».proof.Proof.GinLayout
import proofs.«152993_j74431783240459_2_alg».proof.Proof.LibGatherRows
import proofs.«152993_j74431783240459_2_alg».proof.Proof.LibScatterRows
import proofs.«152993_j74431783240459_2_alg».proof.Proof.LibScatterVec
import Idealize.ShloMosaic.Lib.StableHlo.Run
import Idealize.ShloMosaic.PureOps.Ideal

noncomputable section

namespace Cert.Gin.KHost

open Cert.KernelIdeal Cert.KernelIdeal.Gen Idealize.ShloMosaic Idealize.ShloMosaic.TcCoe Idealize.SL.Sem
open Idealize.ShloMosaic.ValueIdx
open scoped BigOperators

/-- The edge list's first row: the source node of every edge. -/
def srcRow (x1 : (⟨S2x640000, .i32⟩ : BufTy).Contents (Elt Ideal)) : (⟨S640000, .i32⟩ : BufTy).Contents (Elt Ideal) :=
  shapeCast _ (extractStridedSlice S1x640000 ![0, 0] x1 slices_S2x640000_S1x640000_0_0) shapeCasts_S1x640000_S640000

/-- The edge list's second row: the target node of every edge. -/
def dstRow (x1 : (⟨S2x640000, .i32⟩ : BufTy).Contents (Elt Ideal)) : (⟨S640000, .i32⟩ : BufTy).Contents (Elt Ideal) :=
  shapeCast _ (extractStridedSlice S1x640000 ![1, 0] x1 slices_S2x640000_S1x640000_1_0) shapeCasts_S1x640000_S640000

/-- The sources as a column of row numbers, a negative number first raised by the number of nodes. -/
def srcCol (x1 : (⟨S2x640000, .i32⟩ : BufTy).Contents (Elt Ideal)) : (⟨S640000x1, .i32⟩ : BufTy).Contents (Elt Ideal) :=
  broadcastInDim S640000x1 ![0] bcast_S640000_S640000x1_0
    (select (cmpi .slt (srcRow x1) (broadcastInDim S640000 ![] bcast_S_S640000 (constantI S_ 32 0#32)))
      (addi (srcRow x1) (broadcastInDim S640000 ![] bcast_S_S640000 (constantI S_ 32 50000#32))) (srcRow x1))

/-- The targets as a column of row numbers. -/
def dstCol (x1 : (⟨S2x640000, .i32⟩ : BufTy).Contents (Elt Ideal)) : (⟨S640000x1, .i32⟩ : BufTy).Contents (Elt Ideal) :=
  broadcastInDim S640000x1 ![0] bcast_S640000_S640000x1_0 (dstRow x1)

/-- The raw features of each edge's source, summed into the edge's target. -/
def aggx (x0 : (⟨S50000x128, .f32⟩ : BufTy).Contents (Elt Ideal)) (x1 : (⟨S2x640000, .i32⟩ : BufTy).Contents (Elt Ideal)) :
    (⟨S50000x128, .f32⟩ : BufTy).Contents (Elt Ideal) :=
  Host.scatterAdd (F := Ideal) scatter_S50000x128_S640000x1_S640000x128_1_0_0_1
    (broadcastInDim S50000x128 ![] bcast_S_S50000x128 (constant (F := Ideal) S_ .f32 0x00000000#32)) (dstCol x1)
    (Host.gather gather_S50000x128_S640000x1_S640000x128_1_0_n_n_0_1_1128 x0 (srcCol x1))

/-- The number of edges into each node, as a column. -/
def deg (x1 : (⟨S2x640000, .i32⟩ : BufTy).Contents (Elt Ideal)) : (⟨S50000x1, .f32⟩ : BufTy).Contents (Elt Ideal) :=
  shapeCast S50000x1 (Host.scatterAdd (F := Ideal) scatter_S50000_S640000x1_S640000_n_0_0_1
      (broadcastInDim S50000 ![] bcast_S_S50000 (constant (F := Ideal) S_ .f32 0x00000000#32)) (dstCol x1)
      (broadcastInDim S640000 ![] bcast_S_S640000 (constant (F := Ideal) S_ .f32 0x3F800000#32))) shapeCasts_S50000_S50000x1

/-- The first normalisation's scale, per feature. -/
def s0 (x2 x5 : (⟨S128, .f32⟩ : BufTy).Contents (Elt Ideal)) : (⟨S128, .f32⟩ : BufTy).Contents (Elt Ideal) :=
  mulf (F := Ideal) (φ := .f32) x2 (Host.rsqrt (addf x5 (broadcastInDim S128 ![] bcast_S_S128 (constant (F := Ideal) S_ .f32 0x3727C5AC#32))))

/-- The first normalisation's offset, per feature: beta - scale * mean. -/
def t0 (x2 x3 x4 x5 : (⟨S128, .f32⟩ : BufTy).Contents (Elt Ideal)) : (⟨S128, .f32⟩ : BufTy).Contents (Elt Ideal) :=
  subf (F := Ideal) (φ := .f32) x3 (mulf (F := Ideal) (φ := .f32) (s0 x2 x5) x4)

variable (m : (ℓ : Loc nD τ sig) → Buf (Elt Ideal) ℓ)

set_option maxHeartbeats 4000000 in
/-- The region finds the edge sums in its second operand. -/
theorem V_aggx (c : Dev nD) : (V m c main_v13 : S50000x128.Idx → EReal)
    = aggx (m ((c : Thread nD τ).loc main_arg0)) (m ((c : Thread nD τ).loc main_arg1)) := by
  dsimp only [Gen.V, Gen.hostOps0]
  after_results
  rfl

set_option maxHeartbeats 4000000 in
/-- The region finds the in-degree column in its third operand. -/
theorem V_deg (c : Dev nD) : (V m c main_v18 : S50000x1.Idx → EReal) = deg (m ((c : Thread nD τ).loc main_arg1)) := by
  dsimp only [Gen.V, Gen.hostOps0]
  after_results
  rfl

set_option maxHeartbeats 4000000 in
/-- The region finds the scale in its fourth operand. -/
theorem V_s0 (c : Dev nD) : (V m c main_v22 : S128.Idx → EReal)
    = s0 (m ((c : Thread nD τ).loc main_arg2)) (m ((c : Thread nD τ).loc main_arg5)) := by
  dsimp only [Gen.V, Gen.hostOps0]
  after_results
  rfl

set_option maxHeartbeats 4000000 in
/-- The region finds the offset in its fifth operand. -/
theorem V_t0 (c : Dev nD) : (V m c main_v24 : S128.Idx → EReal)
    = t0 (m ((c : Thread nD τ).loc main_arg2)) (m ((c : Thread nD τ).loc main_arg3))
        (m ((c : Thread nD τ).loc main_arg4)) (m ((c : Thread nD τ).loc main_arg5)) := by
  dsimp only [Gen.V, Gen.hostOps0]
  after_results
  rfl

end Cert.Gin.KHost

end
-- ==== Proof.GinKernelHostAt.lean ====
/-
  The arrays the kernel's host operations prepare, read at an entry.
-/
import proofs.«152993_j74431783240459_2_alg».proof.Proof.GinKernelHost

noncomputable section

namespace Cert.Gin.KHost

open Cert.KernelIdeal Cert.KernelIdeal.Gen Idealize.ShloMosaic Idealize.ShloMosaic.ValueIdx
open scoped BigOperators

/-- The edge sum of raw features at (n, k): over the edges whose target word is n, the raw feature of the edge's source
    row (its word read signed and clamped into the table). -/
theorem aggx_apply (x0 : (⟨S50000x128, .f32⟩ : BufTy).Contents (Elt Ideal)) (x1 : (⟨S2x640000, .i32⟩ : BufTy).Contents (Elt Ideal))
    (n : Fin 50000) (k : Fin 128) :
    aggx x0 x1 (ix2 n k)
      = zero + ∑ e : Fin 640000, if (dstCol x1 (ix2 e (0 : Fin 1))).toInt = (n.val : Int)
          then x0 (ix2 (⟨min (srcCol x1 (ix2 e (0 : Fin 1))).toInt.toNat (50000 - 1), by omega⟩ : Fin 50000) k) else 0 := by
  unfold aggx
  refine (Cert.LibRows.scatterAdd_rows_apply scatter_S50000x128_S640000x1_S640000x128_1_0_0_1_wf _ _ _ n k).trans ?_
  rw [hostScalar_apply bcast_S_S50000x128 _ (ix2 n k)]
  refine congrArg (fun z : EReal => zero + z) (Finset.sum_congr rfl fun e _ => ?_)
  exact if_congr Iff.rfl (Cert.LibRows.gather_rows_apply (by decide)
    gather_S50000x128_S640000x1_S640000x128_1_0_n_n_0_1_1128_wf _ _ e k) rfl

/-- The in-degree at node n: one for every edge whose target word is n. -/
theorem deg_apply (x1 : (⟨S2x640000, .i32⟩ : BufTy).Contents (Elt Ideal)) (n : Fin 50000) :
    deg x1 (ix2 n (0 : Fin 1))
      = zero + ∑ e : Fin 640000, if (dstCol x1 (ix2 e (0 : Fin 1))).toInt = (n.val : Int) then one else 0 := by
  unfold deg
  refine (column_apply _ shapeCasts_S50000_S50000x1 n 0).trans ?_
  refine (Cert.LibVec.scatterAdd_vec_apply scatter_S50000_S640000x1_S640000_n_0_0_1_wf _ _ _ n).trans ?_
  rw [hostScalar_apply bcast_S_S50000 _ (ix1 n)]
  refine congrArg (fun z : EReal => zero + z) (Finset.sum_congr rfl fun e _ => ?_)
  exact if_congr Iff.rfl (hostScalar_apply bcast_S_S640000 _ (ix1 e)) rfl

/-- The folded scale at feature k. -/
theorem s0_apply (x2 x5 : (⟨S128, .f32⟩ : BufTy).Contents (Elt Ideal)) (k : Fin 128) :
    s0 x2 x5 (ix1 k) = scale (x2 (ix1 k)) (x5 (ix1 k)) := by
  unfold s0 scale
  show x2 (ix1 k) * Ideal.rsqrt (x5 (ix1 k)
      + broadcastInDim S128 ![] bcast_S_S128 (constant (F := Ideal) S_ .f32 0x3727C5AC#32) (ix1 k)) = _
  rw [hostScalar_apply bcast_S_S128 _ (ix1 k)]

/-- The folded offset at feature k. -/
theorem t0_apply (x2 x3 x4 x5 : (⟨S128, .f32⟩ : BufTy).Contents (Elt Ideal)) (k : Fin 128) :
    t0 x2 x3 x4 x5 (ix1 k) = x3 (ix1 k) - scale (x2 (ix1 k)) (x5 (ix1 k)) * x4 (ix1 k) := by
  unfold t0
  show x3 (ix1 k) - s0 x2 x5 (ix1 k) * x4 (ix1 k) = _
  rw [s0_apply]

end Cert.Gin.KHost

end
-- ==== Proof.GinRef.lean ====
/-
  The reference program read at an entry: its result at (n, c) is the head of row n of its combined features, and a
  combined feature is the node's normalised feature plus the sum of the normalised features gathered along the edges
  that end at the node.
-/
import proofs.«152993_j74431783240459_2_alg».proof.Proof.Gen.ReferenceIdeal.Read
import proofs.«152993_j74431783240459_2_alg».proof.Proof.GinSpec
import proofs.«152993_j74431783240459_2_alg».proof.Proof.GinLayout
import proofs.«152993_j74431783240459_2_alg».proof.Proof.LibGatherRows
import proofs.«152993_j74431783240459_2_alg».proof.Proof.LibScatterRows

noncomputable section

namespace Cert.Gin.Ref

open Cert.ReferenceIdeal Cert.ReferenceIdeal.Gen Cert.ReferenceIdeal.Read Idealize.ShloMosaic Idealize.ShloMosaic.ValueIdx
open scoped BigOperators

section
variable (x0 : (⟨S50000x128, .f32⟩ : BufTy).Contents (Elt Ideal)) (x1 : (⟨S2x640000, .i32⟩ : BufTy).Contents (Elt Ideal))
  (x2 x3 x4 x5 : (⟨S128, .f32⟩ : BufTy).Contents (Elt Ideal))

/-- The normalised features at (n, k). -/
theorem v12_apply (n : Fin 50000) (k : Fin 128) :
    val_main_v12 (F := Ideal) x0 x2 x3 x4 x5 (ix2 n k)
      = norm (x0 (ix2 n k)) (x4 (ix1 k)) (x2 (ix1 k)) (x5 (ix1 k)) (x3 (ix1 k)) := by
  unfold val_main_v12 val_main_v9 val_main_v2 val_main_v1 val_main_v0 val_main_v8 val_main_v7 val_main_v6 val_main_v5
    val_main_v4 val_main_v3 val_main_cst val_main_v11 val_main_v10 norm scale
  show (x0 (ix2 n k) - broadcastInDim S50000x128 ![0, 1] bcast_S1x128_S50000x128_0_1
          (broadcastInDim S1x128 ![1] bcast_S128_S1x128_1 x4) (ix2 n k))
        * broadcastInDim S50000x128 ![0, 1] bcast_S1x128_S50000x128_0_1 (broadcastInDim S1x128 ![1] bcast_S128_S1x128_1
            (mulf (F := Ideal) x2 (Host.rsqrt (addf x5 (broadcastInDim S128 ![] bcast_S_S128 (constant S_ .f32 0x3727C5AC#32))))))
          (ix2 n k)
      + broadcastInDim S50000x128 ![0, 1] bcast_S1x128_S50000x128_0_1 (broadcastInDim S1x128 ![1] bcast_S128_S1x128_1 x3)
          (ix2 n k) = _
  rw [hostRow_apply x4 bcast_S128_S1x128_1 bcast_S1x128_S50000x128_0_1 n k,
    hostRow_apply x3 bcast_S128_S1x128_1 bcast_S1x128_S50000x128_0_1 n k,
    hostRow_apply _ bcast_S128_S1x128_1 bcast_S1x128_S50000x128_0_1 n k]
  show (x0 (ix2 n k) - x4 (ix1 k))
        * (x2 (ix1 k) * Ideal.rsqrt (x5 (ix1 k)
            + broadcastInDim S128 ![] bcast_S_S128 (constant (F := Ideal) S_ .f32 0x3727C5AC#32) (ix1 k)))
      + x3 (ix1 k) = _
  rw [hostScalar_apply bcast_S_S128 _ (ix1 k)]

/-- The edge sum of normalised features at (n, k): over the edges whose target word is n, the normalised feature of
    the edge's source row (its word read signed and clamped into the table). -/
theorem v26_apply (n : Fin 50000) (k : Fin 128) :
    val_main_v26 (F := Ideal) x0 x1 x2 x3 x4 x5 (ix2 n k)
      = zero + ∑ e : Fin 640000, if (val_main_v25 (F := Ideal) x1 (ix2 e (0 : Fin 1))).toInt = (n.val : Int)
            then norm (x0 (ix2 (⟨min (val_main_v22 (F := Ideal) x1 (ix2 e (0 : Fin 1))).toInt.toNat (50000 - 1), by omega⟩ : Fin 50000) k))
              (x4 (ix1 k)) (x2 (ix1 k)) (x5 (ix1 k)) (x3 (ix1 k))
            else 0 := by
  unfold val_main_v26 val_main_v24 val_main_cst_1 val_main_v23
  refine (Cert.LibRows.scatterAdd_rows_apply scatter_S50000x128_S640000x1_S640000x128_1_0_0_1_wf _ _ _ n k).trans ?_
  rw [hostScalar_apply bcast_S_S50000x128 _ (ix2 n k)]
  refine congrArg (fun z : EReal => zero + z) (Finset.sum_congr rfl fun e _ => ?_)
  exact if_congr Iff.rfl ((Cert.LibRows.gather_rows_apply (by decide)
    gather_S50000x128_S640000x1_S640000x128_1_0_n_n_0_1_1128_wf _ _ e k).trans (v12_apply x0 x2 x3 x4 x5 _ k)) rfl

/-- The combined features at (n, k): the node's normalised feature plus the edge sum. -/
theorem v29_apply (n : Fin 50000) (k : Fin 128) :
    val_main_v29 (F := Ideal) x0 x1 x2 x3 x4 x5 (ix2 n k)
      = one * norm (x0 (ix2 n k)) (x4 (ix1 k)) (x2 (ix1 k)) (x5 (ix1 k)) (x3 (ix1 k))
        + (zero + ∑ e : Fin 640000, if (val_main_v25 (F := Ideal) x1 (ix2 e (0 : Fin 1))).toInt = (n.val : Int)
            then norm (x0 (ix2 (⟨min (val_main_v22 (F := Ideal) x1 (ix2 e (0 : Fin 1))).toInt.toNat (50000 - 1), by omega⟩ : Fin 50000) k))
              (x4 (ix1 k)) (x2 (ix1 k)) (x5 (ix1 k)) (x3 (ix1 k))
            else 0) := by
  unfold val_main_v29 val_main_v28 val_main_v27 val_main_cst_2
  show broadcastInDim S50000x128 ![] bcast_S_S50000x128 (constant (F := Ideal) S_ .f32 0x3F800000#32) (ix2 n k)
        * val_main_v12 (F := Ideal) x0 x2 x3 x4 x5 (ix2 n k)
      + val_main_v26 (F := Ideal) x0 x1 x2 x3 x4 x5 (ix2 n k) = _
  rw [hostScalar_apply bcast_S_S50000x128 _ (ix2 n k), v12_apply, v26_apply]

end

section
variable (x0 : (⟨S50000x128, .f32⟩ : BufTy).Contents (Elt Ideal)) (x1 : (⟨S2x640000, .i32⟩ : BufTy).Contents (Elt Ideal))
  (x2 x3 x4 x5 : (⟨S128, .f32⟩ : BufTy).Contents (Elt Ideal)) (x6 : (⟨S128x256, .f32⟩ : BufTy).Contents (Elt Ideal))
  (x7 x8 x9 x10 x11 : (⟨S256, .f32⟩ : BufTy).Contents (Elt Ideal)) (x12 : (⟨S256x2, .f32⟩ : BufTy).Contents (Elt Ideal))
  (x13 : (⟨S2, .f32⟩ : BufTy).Contents (Elt Ideal))

/-- The second normalisation of the rectified first dense layer at (n, j). -/
theorem v47_apply (n : Fin 50000) (j : Fin 256) :
    val_main_v47 (F := Ideal) x0 x1 x2 x3 x4 x5 x6 x7 x8 x9 x10 x11 (ix2 n j)
      = norm (max ((∑ k : Fin 128, val_main_v29 (F := Ideal) x0 x1 x2 x3 x4 x5 (ix2 n k) * x6 (ix2 k j)) + x7 (ix1 j)) zero)
          (x10 (ix1 j)) (x8 (ix1 j)) (x11 (ix1 j)) (x9 (ix1 j)) := by
  unfold val_main_v47 val_main_v44 val_main_v37 val_main_v34 val_main_v33 val_main_v32 val_main_v31 val_main_call0_v0
    val_main_call0_cst val_main_v36 val_main_v35 val_main_v43 val_main_v42 val_main_v41 val_main_v40 val_main_v39
    val_main_v38 val_main_cst_3 val_main_v46 val_main_v45 norm scale
  show (max (val_main_v30 (F := Ideal) x0 x1 x2 x3 x4 x5 x6 (ix2 n j)
            + broadcastInDim S50000x256 ![0, 1] bcast_S1x256_S50000x256_0_1 (broadcastInDim S1x256 ![1] bcast_S256_S1x256_1 x7) (ix2 n j))
          (broadcastInDim S50000x256 ![] bcast_S_S50000x256 (constant (F := Ideal) S_ .f32 0x00000000#32) (ix2 n j))
        - broadcastInDim S50000x256 ![0, 1] bcast_S1x256_S50000x256_0_1 (broadcastInDim S1x256 ![1] bcast_S256_S1x256_1 x10) (ix2 n j))
      * broadcastInDim S50000x256 ![0, 1] bcast_S1x256_S50000x256_0_1 (broadcastInDim S1x256 ![1] bcast_S256_S1x256_1
          (mulf (F := Ideal) x8 (Host.rsqrt (addf x11 (broadcastInDim S256 ![] bcast_S_S256 (constant S_ .f32 0x3727C5AC#32))))))
          (ix2 n j)
      + broadcastInDim S50000x256 ![0, 1] bcast_S1x256_S50000x256_0_1 (broadcastInDim S1x256 ![1] bcast_S256_S1x256_1 x9) (ix2 n j) = _
  rw [hostRow_apply x7 bcast_S256_S1x256_1 bcast_S1x256_S50000x256_0_1 n j,
    hostRow_apply x10 bcast_S256_S1x256_1 bcast_S1x256_S50000x256_0_1 n j,
    hostRow_apply x9 bcast_S256_S1x256_1 bcast_S1x256_S50000x256_0_1 n j,
    hostRow_apply _ bcast_S256_S1x256_1 bcast_S1x256_S50000x256_0_1 n j,
    hostScalar_apply bcast_S_S50000x256 _ (ix2 n j), val_main_v30_apply]
  show (max ((∑ k : Fin 128, _) + x7 (ix1 j)) zero - x10 (ix1 j))
        * (x8 (ix1 j) * Ideal.rsqrt (x11 (ix1 j)
            + broadcastInDim S256 ![] bcast_S_S256 (constant (F := Ideal) S_ .f32 0x3727C5AC#32) (ix1 j)))
      + x9 (ix1 j) = _
  rw [hostScalar_apply bcast_S_S256 _ (ix1 j)]
  have el : ∀ k : Fin 128, lidx_main_v30 (ix2 n j) k = ix2 n k := fun k =>
    funext fun a => by match a with | ⟨0, _⟩ => rfl | ⟨1, _⟩ => rfl
  have er : ∀ k : Fin 128, ridx_main_v30 (ix2 n j) k = ix2 k j := fun k =>
    funext fun a => by match a with | ⟨0, _⟩ => rfl | ⟨1, _⟩ => rfl
  simp only [el, er]

/-- The reference's result at (n, c) is the head of row n of its combined features. -/
theorem v51_apply (n : Fin 50000) (c : Fin 2) :
    val_main_v51 (F := Ideal) x0 x1 x2 x3 x4 x5 x6 x7 x8 x9 x10 x11 x12 x13 (ix2 n c)
      = head (fun k => val_main_v29 (F := Ideal) x0 x1 x2 x3 x4 x5 (ix2 n k)) x6 x7 x8 x9 x10 x11 x12 x13 c := by
  unfold head
  rw [val_main_v51_apply, val_main_v48_apply]
  unfold val_main_v50 val_main_v49
  show (∑ j : Fin 256, _) + broadcastInDim S50000x2 ![0, 1] bcast_S1x2_S50000x2_0_1
      (broadcastInDim S1x2 ![1] bcast_S2_S1x2_1 x13) (ix2 n c) = _
  rw [hostRow_apply x13 bcast_S2_S1x2_1 bcast_S1x2_S50000x2_0_1 n c]
  refine congrArg (fun z => z + x13 (ix1 c)) (Finset.sum_congr rfl fun j _ => ?_)
  have el : lidx_main_v48 (ix2 n c) j = ix2 n j := funext fun a => by match a with | ⟨0, _⟩ => rfl | ⟨1, _⟩ => rfl
  have er : ridx_main_v48 (ix2 n c) j = ix2 j c := funext fun a => by match a with | ⟨0, _⟩ => rfl | ⟨1, _⟩ => rfl
  rw [el, er, v47_apply]

end

end Cert.Gin.Ref

end
-- ==== Proof.GinBridge.lean ====
/-
  The bridge: under the precondition the kernel's combined features are the reference's, entry by entry, and so the
  kernel's whole result is the reference's result.

  With real features x, mean r, offset b and a real scale s (the variance is not negative, so the reciprocal square
  root of variance + eps is a real number), the reference's  1 * ((x_n - r) s + b) + sum over edges into n of
  ((x_src - r) s + b)  and the kernel's  s (1 * x_n + sum x_src) + (1 + number of edges into n) (b - s r)  are one real
  number. The two programs build the edge columns by the same operations, so the sums range over the same edges.
-/
import proofs.«152993_j74431783240459_2_alg».proof.Proof.GinKernelHostAt
import proofs.«152993_j74431783240459_2_alg».proof.Proof.GinRef

noncomputable section

namespace Cert.Gin.Bridge

open Idealize.ShloMosaic Idealize.ShloMosaic.ValueIdx Cert.ReferenceIdeal
open scoped BigOperators

section
variable (x0 : (⟨S50000x128, .f32⟩ : BufTy).Contents (Elt Ideal)) (x1 : (⟨S2x640000, .i32⟩ : BufTy).Contents (Elt Ideal))
  (x2 x3 x4 x5 : (⟨S128, .f32⟩ : BufTy).Contents (Elt Ideal))

/-- The kernel's combined feature at (n, k) is the reference's. -/
theorem combined_eq (h0 : ∀ i, ∃ r : ℝ, x0 i = (r : EReal)) (h2 : ∀ i, ∃ r : ℝ, x2 i = (r : EReal))
    (h3 : ∀ i, ∃ r : ℝ, x3 i = (r : EReal)) (h4 : ∀ i, ∃ r : ℝ, x4 i = (r : EReal))
    (h5 : ∀ i, ∃ r : ℝ, 0 ≤ r ∧ x5 i = (r : EReal)) (n : Fin 50000) (k : Fin 128) :
    combined x0 (KHost.aggx x0 x1) (KHost.deg x1) (KHost.s0 x2 x5) (KHost.t0 x2 x3 x4 x5) n k
      = Read.val_main_v29 (F := Ideal) x0 x1 x2 x3 x4 x5 (ix2 n k) := by
  rw [Ref.v29_apply]
  unfold combined
  rw [KHost.aggx_apply, KHost.deg_apply, KHost.s0_apply, KHost.t0_apply]
  have ed : KHost.dstCol x1 = Read.val_main_v25 (F := Ideal) x1 := rfl
  have es : KHost.srcCol x1 = Read.val_main_v22 (F := Ideal) x1 := rfl
  simp only [ed, es]
  choose y hy using h0
  obtain ⟨r, hr⟩ := h4 (ix1 k)
  obtain ⟨g, hg⟩ := h2 (ix1 k)
  obtain ⟨b, hb⟩ := h3 (ix1 k)
  obtain ⟨v, hv0, hv⟩ := h5 (ix1 k)
  obtain ⟨s, hs⟩ := scale_real g v hv0
  unfold norm
  simp only [hy, hr, hg, hb, hv, hs]
  rw [one_eq, zero_eq]
  exact (combine_ereal
    (fun e : Fin 640000 => (Read.val_main_v25 (F := Ideal) x1 (ix2 e (0 : Fin 1))).toInt = (n.val : Int))
    (y (ix2 n k)) r s b
    (fun e : Fin 640000 => y (ix2 (⟨min (Read.val_main_v22 (F := Ideal) x1 (ix2 e (0 : Fin 1))).toInt.toNat (50000 - 1),
      by omega⟩ : Fin 50000) k))).symm

end

/-- The kernel's whole result, from the arguments, is the reference's result. -/
theorem out_eq (x0 : (⟨S50000x128, .f32⟩ : BufTy).Contents (Elt Ideal)) (x1 : (⟨S2x640000, .i32⟩ : BufTy).Contents (Elt Ideal))
    (x2 x3 x4 x5 : (⟨S128, .f32⟩ : BufTy).Contents (Elt Ideal)) (x6 : (⟨S128x256, .f32⟩ : BufTy).Contents (Elt Ideal))
    (x7 x8 x9 x10 x11 : (⟨S256, .f32⟩ : BufTy).Contents (Elt Ideal)) (x12 : (⟨S256x2, .f32⟩ : BufTy).Contents (Elt Ideal))
    (x13 : (⟨S2, .f32⟩ : BufTy).Contents (Elt Ideal))
    (h0 : ∀ i, ∃ r : ℝ, x0 i = (r : EReal)) (h2 : ∀ i, ∃ r : ℝ, x2 i = (r : EReal))
    (h3 : ∀ i, ∃ r : ℝ, x3 i = (r : EReal)) (h4 : ∀ i, ∃ r : ℝ, x4 i = (r : EReal))
    (h5 : ∀ i, ∃ r : ℝ, 0 ≤ r ∧ x5 i = (r : EReal)) :
    kernelOut x0 (KHost.aggx x0 x1) (KHost.deg x1) (KHost.s0 x2 x5) (KHost.t0 x2 x3 x4 x5) x6 x7 x8 x9 x10 x11 x12 x13
      = Read.val_main_v51 (F := Ideal) x0 x1 x2 x3 x4 x5 x6 x7 x8 x9 x10 x11 x12 x13 := by
  funext i
  obtain ⟨n, c, rfl⟩ : ∃ (n : Fin 50000) (c : Fin 2), i = ix2 n c := ⟨i 0, i 1, eq_ix2 i⟩
  rw [Ref.v51_apply]
  unfold kernelOut
  exact congrArg (fun h => head h x6 x7 x8 x9 x10 x11 x12 x13 c)
    (funext fun k => combined_eq x0 x1 x2 x3 x4 x5 h0 h2 h3 h4 h5 n k)

end Cert.Gin.Bridge

end
-- ==== Proof.GinFinite.lean ====
/-
  What the precondition gives: the node features and the four vectors of the first normalisation hold real numbers, and
  the variances are not negative.
-/
import proofs.«152993_j74431783240459_2_alg».proof.Pre_finite_inputs
import proofs.«152993_j74431783240459_2_alg».proof.Proof.GinLayout
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Gin.Finite

open Cert.Pre_finite_inputs Idealize.ShloMosaic Idealize.ShloMosaic.ValueIdx

instance : Subsingleton S_.Idx := ⟨fun _ _ => funext fun d => d.elim0⟩

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Cert.Pre_finite_inputs.Facts]

/-- The precondition read entry by entry for the arrays the first stage uses. -/
theorem decode (a0 : FVec Ideal S50000x128 .f32) (a1 : IVec S2x640000 32) (a2 a3 a4 a5 : FVec Ideal S128 .f32)
    (a6 : FVec Ideal S128x256 .f32) (a7 a8 a9 a10 a11 : FVec Ideal S256 .f32) (a12 : FVec Ideal S256x2 .f32)
    (a13 : FVec Ideal S2 .f32)
    (h : fn (F := Ideal) a0 a1 a2 a3 a4 a5 a6 a7 a8 a9 a10 a11 a12 a13 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, 0 ≤ r ∧ a5 i = (r : EReal)) := by
  have e := congrFun h ix0
  dsimp only [fn, fn_part1, fn_part2, fn_part3] at e
  simp only [andi, IntOp.andi_eq_one] at e
  obtain ⟨⟨⟨⟨⟨⟨⟨⟨⟨⟨⟨⟨⟨hx, hg⟩, hb⟩, hm⟩, hv⟩, -⟩, -⟩, -⟩, -⟩, -⟩, -⟩, -⟩, -⟩, hp⟩ := e
  have fin_of : ∀ {s : Shape} (a : FVec Ideal s .f32)
      (hs : (⟨0, ![]⟩ : Shape).BroadcastsInDim s (![] : Fin 0 → Fin s.rank)) (i : s.Idx),
      cmpf .olt (Host.absf a) (broadcastInDim s ![] hs (constant (F := Ideal) S_ .f32 0x7F800000#32)) i = 1#1 →
      ∃ r : ℝ, a i = (r : EReal) := by
    intro s a hs i hi
    have hi' : Ideal.cmp .olt (max (a i) (-(a i)))
        (broadcastInDim s ![] hs (constant (F := Ideal) S_ .f32 0x7F800000#32) i) = 1#1 := hi
    rw [hostScalar_apply hs _ i] at hi'
    exact real_of_abs_lt (a i) hi'
  refine ⟨fun i => fin_of a0 _ i (Host.reduce_andi_all _ _ _ _ _ hx i),
    fun i => fin_of a2 _ i (Host.reduce_andi_all _ _ _ _ _ hg i),
    fun i => fin_of a3 _ i (Host.reduce_andi_all _ _ _ _ _ hb i),
    fun i => fin_of a4 _ i (Host.reduce_andi_all _ _ _ _ _ hm i), fun i => ?_⟩
  obtain ⟨r, hr⟩ := fin_of a5 _ i (Host.reduce_andi_all _ _ _ _ _ hv i)
  have hp' : Ideal.cmp .oge (a5 i)
      (broadcastInDim S128 ![] _ (constant (F := Ideal) S_ .f32 0x00000000#32) i) = 1#1 :=
    Host.reduce_andi_all _ _ _ _ _ hp i
  rw [hostScalar_apply _ _ i, Ideal.ofBits_zero_f32, hr] at hp'
  refine ⟨r, ?_, hr⟩
  simp [Ideal.cmp] at hp'
  by_contra hneg
  rw [decide_eq_false hneg] at hp'
  exact absurd hp' (by decide)

end Cert.Gin.Finite

end
-- ==== Proof.lean ====
/-
  The certificate: a graph-isomorphism layer (normalise the node features, add to each node the sum of its in-neighbours'
  normalised features, dense layer, rectifier, second normalisation, dense layer) computed by one tiled kernel after
  host edge sums, against the plain array program.

  The kernel sums RAW features over the edges, counts the edges into each node, and applies the first normalisation's
  affine map once per node,  s (x_n + sum x_src) + (1 + deg n) (beta - s mean);  the reference normalises first and sums
  afterwards. Over real numbers the two agree by distributing the sums; the precondition supplies the real numbers:
  every float input is finite and the first normalisation's variances are not negative, so that its scale
  gamma * rsqrt(var + eps) is a real number. Everything after the combined features is the same function of a row on
  both sides, and the kernel's 25 tiles of 2000 rows cover the 50000 rows of the result.
-/
import proofs.«152993_j74431783240459_2_alg».proof.Defs
import proofs.«152993_j74431783240459_2_alg».proof.Proof.Gen.Kernel
import proofs.«152993_j74431783240459_2_alg».proof.Proof.Gen.Kernel.Skeleton
import proofs.«152993_j74431783240459_2_alg».proof.Proof.Gen.Kernel.Launch
import proofs.«152993_j74431783240459_2_alg».proof.Proof.Gen.Kernel.Points
import proofs.«152993_j74431783240459_2_alg».proof.Proof.Gen.Kernel.Frame
import proofs.«152993_j74431783240459_2_alg».proof.Proof.Gen.KernelIdeal
import proofs.«152993_j74431783240459_2_alg».proof.Proof.Gen.KernelIdeal.Skeleton
import proofs.«152993_j74431783240459_2_alg».proof.Proof.Gen.KernelIdeal.Launch
import proofs.«152993_j74431783240459_2_alg».proof.Proof.Gen.KernelIdeal.Points
import proofs.«152993_j74431783240459_2_alg».proof.Proof.Gen.KernelIdeal.Frame
import proofs.«152993_j74431783240459_2_alg».proof.Proof.Gen.ReferenceIdeal
import proofs.«152993_j74431783240459_2_alg».proof.Proof.Gen.Pre_finite_inputs
import proofs.«152993_j74431783240459_2_alg».proof.Proof.Gen.KernelIdeal.Value
import proofs.«152993_j74431783240459_2_alg».proof.Proof.Gen.ReferenceIdeal.Run
import proofs.«152993_j74431783240459_2_alg».proof.Proof.Gen.ReferenceIdeal.Read
import proofs.«152993_j74431783240459_2_alg».proof.Proof.GinKernelValue
import proofs.«152993_j74431783240459_2_alg».proof.Proof.GinKernelHost
import proofs.«152993_j74431783240459_2_alg».proof.Proof.GinBridge
import proofs.«152993_j74431783240459_2_alg».proof.Proof.GinFinite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the whole-array function of its arguments, the reference's at its own term of
    arguments that agree; under the precondition the two are one array. -/
theorem algebraic : Cert.algebraic_KernelIdeal_ReferenceIdeal := by
  intro m ρ m' ρ' hpre hagree
  refine ⟨_, Cert.Gin.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v51_eq, a0, a1, a2, a3, a4, a5, a6, a7, a8, a9, a10, a11, a12, a13]
  obtain ⟨f0, f2, f3, f4, f5⟩ := Cert.Gin.Finite.decode _ _ _ _ _ _ _ _ _ _ _ _ _ _ (hpre c)
  unfold Cert.Gin.KValue.result
  rw [Cert.Gin.KHost.V_aggx m c, Cert.Gin.KHost.V_deg m c, Cert.Gin.KHost.V_s0 m c, Cert.Gin.KHost.V_t0 m c,
    Cert.KernelIdeal.Gen.V_main_arg0 m c, Cert.KernelIdeal.Gen.V_main_arg6 m c, Cert.KernelIdeal.Gen.V_main_arg7 m c,
    Cert.KernelIdeal.Gen.V_main_arg8 m c, Cert.KernelIdeal.Gen.V_main_arg9 m c, Cert.KernelIdeal.Gen.V_main_arg10 m c,
    Cert.KernelIdeal.Gen.V_main_arg11 m c, Cert.KernelIdeal.Gen.V_main_arg12 m c, Cert.KernelIdeal.Gen.V_main_arg13 m c]
  exact (Cert.Gin.Bridge.out_eq _ _ _ _ _ _ _ _ _ _ _ _ _ _ f0 f2 f3 f4 f5).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
